-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x2048x2048 : Shape := ⟨3, ![8, 2048, 2048]⟩
abbrev S1x256x512 : Shape := ⟨3, ![1, 256, 512]⟩
abbrev S1x2048x512 : Shape := ⟨3, ![1, 2048, 512]⟩
abbrev S1x256x2048 : Shape := ⟨3, ![1, 256, 2048]⟩
abbrev S256x512 : Shape := ⟨2, ![256, 512]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x256x2048, .f32⟩
  | .local _ .vmem, ⟨5, _⟩ => ⟨S1x256x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x2048x512.size a
  hwx0_0 : ∀ i : grid0.Coords, EltTy.bits .f32 = 32 ∨ (Rect.block (s := S8x2048x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.FrameBitsBody.lean ====
/-
  The frame of the program `Kernel`: its one kernel region runs at every one of the 64 grid points, faults
  nowhere, and leaves the argument array as it found it; and each output block, after the body at a point, is the
  stored value (the softmax payload) of the two input blocks at that point.

  The kernel is handed ONE array through two input windows — the 256-row query block of batch `b` and the
  whole 2048-row key block of batch `b` —, so the array's full share is dealt in two halves, one per window,
  and the result array is held at the full share by the output window.  The body loads both staging buffers,
  computes, and overwrites the output staging buffer whole; it keeps nothing between points and uses no scratch.
-/
import proofs.«107442_j45148696216798_1_alg».proof.Proof.Gen.Kernel.Launch
import proofs.«107442_j45148696216798_1_alg».proof.Proof.Gen.Kernel.Skeleton
import proofs.«107442_j45148696216798_1_alg».proof.Proof.Gen.Kernel.Points
import Idealize.ShloMosaic.Lib.Pipeline.FrameBody
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where the pipeline
    does not fetch, the block index has not moved since the last fetch. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each staging buffer whole -/

abbrev rq : Rect S1x256x512 := Rect.unit (s := S1x256x512) ![0, 0, 0] S1x256x512.size inb_S1x256x512_S1x256x512_0_0_0
abbrev rk : Rect S1x2048x512 := Rect.unit (s := S1x2048x512) ![0, 0, 0] S1x2048x512.size inb_S1x2048x512_S1x2048x512_0_0_0
abbrev ro : Rect S1x256x2048 := Rect.unit (s := S1x256x2048) ![0, 0, 0] S1x256x2048.size inb_S1x256x2048_S1x256x2048_0_0_0

/-- What the body leaves in the output staging buffer, from the two input blocks: its one store, the whole
    buffer, of the stored value of the two loads. -/
def outBlock (x0 : Vec F S1x256x512 .f32) (x1 : Vec F S1x2048x512 .f32) : Vec F S1x256x2048 .f32 :=
  View.canon [⟨ro, k0_pay1 (View.ld x0 rq) (View.ld x1 rk)⟩]

/-- The one store covers the buffer. -/
theorem outCover (p0 : Vec F S1x256x2048 .f32) (y : S1x256x2048.Idx) :
    ∃ pc ∈ ([⟨ro, p0⟩] : List (View.Piece (Elt F) S1x256x2048 .f32)), y ∈ pc.1.set :=
  View.cover_of_tiled [⟨ro, p0⟩] S1x256x2048.size (by rfl) y

/-! ## The body's triple -/

set_option maxHeartbeats 1000000 in
/-- The kernel body on whole staging memrefs, the inputs' at read contents `x0`, `x1` and the output's at
    anything, runs to the continuation holding the inputs' as they were and the output's at `outBlock x0 x1`. -/
theorem sound_kernel (c : Dev nD) (E : Set ℕ) (i : grid0.Coords) (arg2 : Memref sig .tc .vmem S1x256x512 .f32) (harg2 : arg2.IsWhole) (arg3 : Memref sig .tc .vmem S1x2048x512 .f32) (harg3 : arg3.IsWhole) (arg4 : Memref sig .tc .vmem S1x256x2048 .f32) (harg4 : arg4.IsWhole)
    (x0 : Vec F S1x256x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Kernel.Frame

end
-- ==== Proof.FrameBitsRun.lean ====
/-
  The run of the program `Kernel`: the proof data of its one pipeline, the body obligation at every grid
  point, the deal of the shared argument array between its two input windows, and the launch.

  After the body at point `t` the query window's and the key window's staging buffers hold their blocks, and the
  output window's holds the stored value of those two blocks.  The argument array, handed to the kernel through
  both input windows, is held at one half of the full share by each; the result array is held whole.  The run
  ends with every windowed array at what the write-backs made of it.
-/
import proofs.«107442_j45148696216798_1_alg».proof.Proof.FrameBitsBody
import Idealize.ShloMosaic.Lib.Pipeline.Launch
import Idealize.ShloMosaic.Lib.Pipeline.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's
    buffer at its block and the output's at the stored value of the two blocks; the invariant the core's scoped
    buffers that are no staging buffer (there is none); the argument array dealt in two halves to the two input
    windows, the result array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outBlock (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    after_q, after_k, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The shared array dealt to the two input windows -/

/-- The two distinct buffers behind the three windows' arrays, each whole at the full share, make the proof
    data's arrays at entry: the argument array's full share splits into its two halves, one for the query window
    and one for the key window; the result array goes to the output window whole. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_W0,
    show Finset.univ.image (Pipeline.arrRef spec0) = ({main_arg0, main_v0} : Finset (Ref sig .tc)) from by decide,
    bigSep_insert (by decide), bigSep_singleton]
  have s0 : (dats m 0 c).share 0 = fullShare.left := by unfold Dat.share; rfl
  have s1 : (dats m 0 c).share 1 = fullShare.right := by unfold Dat.share; rfl
  have s2 : (dats m 0 c).share 2 = fullShare := by unfold Dat.share; rfl
  have h0 : (cfg0.win 0).arr.view.set = Finset.univ := (arr_whole0 0).set_eq_univ
  have h2 : (cfg0.win 2).arr.view.set = Finset.univ := (arr_whole0 2).set_eq_univ
  rw [s0, s1, s2, h0, h2]
  show (iprop((((c.tc : Thread nD τ).loc main_arg0) ↦{fullShare} V m c main_arg0) ∗ (((c.tc : Thread nD τ).loc main_v0) ↦{fullShare} V m c main_v0)) : sProp 𝕄) ⊢ _
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-! ## The run -/

set_option backward.isDefEq.respectTransparency.types false in
/-- At the compiled mesh, for any values, from any memory with zero counters: every weakly fair execution of the
    program terminates, nothing faulting, and every final state has each windowed array at what the write-backs
    made of its entry contents — the argument array, read through both input windows, unchanged. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main fun c => (main_chain c).trans rfl)
    (hsplit := arrays_dealt m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The argument array ends as it began: both input windows read it and neither is ever written back. -/
theorem arg_kept (c : Dev nD) : (dats m 0 c).arrAt 0 cfg0.N = m ((c.tc : Thread nD τ).loc main_arg0) :=
  ((dats m 0 c).arrAt_in 0 rfl _).trans (A_eq m c 0)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (arg_kept m c)) (run_main m ρ)

end Cert.Kernel.Frame

end
-- ==== Proof.FrameIdealBody.lean ====
/-
  The frame of the program `KernelIdeal`: its one kernel region runs at every one of the 64 grid points, faults
  nowhere, and leaves the argument array as it found it; and each output block, after the body at a point, is the
  stored value (the softmax payload) of the two input blocks at that point.

  The kernel is handed ONE array through two input windows — the 256-row query block of batch `b` and the
  whole 2048-row key block of batch `b` —, so the array's full share is dealt in two halves, one per window,
  and the result array is held at the full share by the output window.  The body loads both staging buffers,
  computes, and overwrites the output staging buffer whole; it keeps nothing between points and uses no scratch.
-/
import proofs.«107442_j45148696216798_1_alg».proof.Proof.Gen.KernelIdeal.Launch
import proofs.«107442_j45148696216798_1_alg».proof.Proof.Gen.KernelIdeal.Skeleton
import proofs.«107442_j45148696216798_1_alg».proof.Proof.Gen.KernelIdeal.Points
import Idealize.ShloMosaic.Lib.Pipeline.FrameBody
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where the pipeline
    does not fetch, the block index has not moved since the last fetch. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each staging buffer whole -/

abbrev rq : Rect S1x256x512 := Rect.unit (s := S1x256x512) ![0, 0, 0] S1x256x512.size inb_S1x256x512_S1x256x512_0_0_0
abbrev rk : Rect S1x2048x512 := Rect.unit (s := S1x2048x512) ![0, 0, 0] S1x2048x512.size inb_S1x2048x512_S1x2048x512_0_0_0
abbrev ro : Rect S1x256x2048 := Rect.unit (s := S1x256x2048) ![0, 0, 0] S1x256x2048.size inb_S1x256x2048_S1x256x2048_0_0_0

/-- What the body leaves in the output staging buffer, from the two input blocks: its one store, the whole
    buffer, of the stored value of the two loads. -/
def outBlock (x0 : Vec F S1x256x512 .f32) (x1 : Vec F S1x2048x512 .f32) : Vec F S1x256x2048 .f32 :=
  View.canon [⟨ro, k0_pay1 (View.ld x0 rq) (View.ld x1 rk)⟩]

/-- The one store covers the buffer. -/
theorem outCover (p0 : Vec F S1x256x2048 .f32) (y : S1x256x2048.Idx) :
    ∃ pc ∈ ([⟨ro, p0⟩] : List (View.Piece (Elt F) S1x256x2048 .f32)), y ∈ pc.1.set :=
  View.cover_of_tiled [⟨ro, p0⟩] S1x256x2048.size (by rfl) y

/-! ## The body's triple -/

set_option maxHeartbeats 1000000 in
/-- The kernel body on whole staging memrefs, the inputs' at read contents `x0`, `x1` and the output's at
    anything, runs to the continuation holding the inputs' as they were and the output's at `outBlock x0 x1`. -/
theorem sound_kernel (c : Dev nD) (E : Set ℕ) (i : grid0.Coords) (arg2 : Memref sig .tc .vmem S1x256x512 .f32) (harg2 : arg2.IsWhole) (arg3 : Memref sig .tc .vmem S1x2048x512 .f32) (harg3 : arg3.IsWhole) (arg4 : Memref sig .tc .vmem S1x256x2048 .f32) (harg4 : arg4.IsWhole)
    (x0 : Vec F S1x256x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.KernelIdeal.Frame

end
-- ==== Proof.FrameIdealRun.lean ====
/-
  The run of the program `KernelIdeal`: the proof data of its one pipeline, the body obligation at every grid
  point, the deal of the shared argument array between its two input windows, and the launch.

  After the body at point `t` the query window's and the key window's staging buffers hold their blocks, and the
  output window's holds the stored value of those two blocks.  The argument array, handed to the kernel through
  both input windows, is held at one half of the full share by each; the result array is held whole.  The run
  ends with every windowed array at what the write-backs made of it.
-/
import proofs.«107442_j45148696216798_1_alg».proof.Proof.FrameIdealBody
import Idealize.ShloMosaic.Lib.Pipeline.Launch
import Idealize.ShloMosaic.Lib.Pipeline.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's
    buffer at its block and the output's at the stored value of the two blocks; the invariant the core's scoped
    buffers that are no staging buffer (there is none); the argument array dealt in two halves to the two input
    windows, the result array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outBlock (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    after_q, after_k, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The shared array dealt to the two input windows -/

/-- The two distinct buffers behind the three windows' arrays, each whole at the full share, make the proof
    data's arrays at entry: the argument array's full share splits into its two halves, one for the query window
    and one for the key window; the result array goes to the output window whole. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_W0,
    show Finset.univ.image (Pipeline.arrRef spec0) = ({main_arg0, main_v0} : Finset (Ref sig .tc)) from by decide,
    bigSep_insert (by decide), bigSep_singleton]
  have s0 : (dats m 0 c).share 0 = fullShare.left := by unfold Dat.share; rfl
  have s1 : (dats m 0 c).share 1 = fullShare.right := by unfold Dat.share; rfl
  have s2 : (dats m 0 c).share 2 = fullShare := by unfold Dat.share; rfl
  have h0 : (cfg0.win 0).arr.view.set = Finset.univ := (arr_whole0 0).set_eq_univ
  have h2 : (cfg0.win 2).arr.view.set = Finset.univ := (arr_whole0 2).set_eq_univ
  rw [s0, s1, s2, h0, h2]
  show (iprop((((c.tc : Thread nD τ).loc main_arg0) ↦{fullShare} V m c main_arg0) ∗ (((c.tc : Thread nD τ).loc main_v0) ↦{fullShare} V m c main_v0)) : sProp 𝕄) ⊢ _
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-! ## The run -/

set_option backward.isDefEq.respectTransparency.types false in
/-- At the compiled mesh, for any values, from any memory with zero counters: every weakly fair execution of the
    program terminates, nothing faulting, and every final state has each windowed array at what the write-backs
    made of its entry contents — the argument array, read through both input windows, unchanged. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main fun c => (main_chain c).trans rfl)
    (hsplit := arrays_dealt m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The argument array ends as it began: both input windows read it and neither is ever written back. -/
theorem arg_kept (c : Dev nD) : (dats m 0 c).arrAt 0 cfg0.N = m ((c.tc : Thread nD τ).loc main_arg0) :=
  ((dats m 0 c).arrAt_in 0 rfl _).trans (A_eq m c 0)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (arg_kept m c)) (run_main m ρ)

end Cert.KernelIdeal.Frame

end
-- ==== Proof.Spec.lean ====
/-
  The specification: the row softmax of a batch of Gram matrices, over the extended reals.

  For an array `x` of shape [8, 2048, 512] the score of rows `i` and `k` of batch `b` is the inner
  product `∑ d, x[b,i,d] · x[b,k,d]`.  Row `i`'s scores are shifted by their maximum (a fold of `max`
  from `-∞`, once more capped below by `-∞`), exponentiated, and divided by the sum of the
  exponentials.  Both programs compute exactly this function, entry by entry.
-/
import Idealize.ShloMosaic.PureOps.Ideal
import Idealize.ShloMosaic.Lib.ValueIdx

noncomputable section

namespace Cert.GramSoftmax

open Idealize.ShloMosaic Idealize.ShloMosaic.ValueIdx

/-- The input's shape and the output's. -/
abbrev SX : Shape := ⟨3, ![8, 2048, 512]⟩
abbrev SO : Shape := ⟨3, ![8, 2048, 2048]⟩

/-- The extended real the word `0xFF800000` denotes (`-∞`); never evaluated: both sides carry the same word. -/
def negInf : EReal := Ideal.ofBits .f32 0xFF800000#32

/-- The inner product of rows `i` and `k` of batch `b`. -/
def score (x : SX.Idx → EReal) (b : Fin 8) (i k : Fin 2048) : EReal :=
  ∑ d : Fin 512, x (ix3 b i d) * x (ix3 b k d)

/-- A row's maximum: the fold of `max` over its 2048 entries from `-∞`, capped below by `-∞` once more. -/
def rowMax (s : Fin 2048 → EReal) : EReal :=
  max negInf ((Finset.univ : Finset (Fin 2048)).fold max negInf s)

/-- The shifted exponential of entry `k` of a row. -/
def expo (s : Fin 2048 → EReal) (k : Fin 2048) : EReal := Ideal.exp (s k - rowMax s)

/-- The softmax of a row, at entry `j`. -/
def softmaxRow (s : Fin 2048 → EReal) (j : Fin 2048) : EReal :=
  Ideal.div (expo s j) (∑ k : Fin 2048, expo s k)

/-- The result at batch `b`, row `i`, column `j`. -/
def entry (x : SX.Idx → EReal) (b : Fin 8) (i j : Fin 2048) : EReal := softmaxRow (score x b i) j

/-- The whole result array as a function of the input array. -/
def G (x : SX.Idx → EReal) : SO.Idx → EReal := fun o =>
  entry x ⟨(o 0).val, (o 0).isLt⟩ ⟨(o 1).val, (o 1).isLt⟩ ⟨(o 2).val, (o 2).isLt⟩

theorem G_ix3 (x : SX.Idx → EReal) (b : Fin 8) (i j : Fin 2048) : G x (ix3 b i j) = entry x b i j := rfl

end Cert.GramSoftmax

end
-- ==== Proof.RefIsSpec.lean ====
/-
  The reference program computes the specification.

  Read one operation at a time at an output index (b, i, j): the batched product of the input with itself
  contracted over the last axis is the score of rows i and j; the reduction by max over the last axis from
  the word for -∞, capped once more by the same word, is the row maximum; subtracting it and exponentiating
  gives the shifted exponentials; their sum over the last axis from zero is the row sum; the quotient is the
  softmax entry.
-/
import proofs.«107442_j45148696216798_1_alg».proof.Proof.Gen.ReferenceIdeal.Read
import proofs.«107442_j45148696216798_1_alg».proof.Proof.Spec
import Idealize.ShloMosaic.PureOps.Reduce
import Idealize.ShloMosaic.PureOps.Ideal.Laws
import Idealize.ShloMosaic.Lib.ValueIdx

noncomputable section

namespace Cert.GramSoftmax.Ref

open Cert.ReferenceIdeal Cert.ReferenceIdeal.Gen Cert.ReferenceIdeal.Read
open Idealize.ShloMosaic Idealize.ShloMosaic.ValueIdx

/-- The reduction over the last axis of an [8,2048,2048] array into an [8,2048] one, as the shape condition
    whose `lift` inserts the reduced coordinate. -/
theorem red2 : S8x2048x2048.Reduces [2] S8x2048 := by decide

/-- Inserting coordinate `k` on the last axis over `(b, i)` gives `(b, i, k)`. -/
theorem lift_ix2 (b : Fin 8) (i k : Fin 2048) : red2.lift (ix2 b i) k = ix3 b i k := by
  funext c
  apply Fin.ext
  match c with
  | ⟨0, _⟩ => rfl
  | ⟨1, _⟩ => rfl
  | ⟨2, _⟩ => rfl

/-- The product's entry at `(b, i, k)` is the score of rows `i` and `k` of batch `b`. -/
theorem v0_at (x0 : (⟨S8x2048x512, .f32⟩ : BufTy).Contents (Elt Ideal)) (b : Fin 8) (i k : Fin 2048) :
    val_main_v0 (F := Ideal) x0 (ix3 b i k) = score x0 b i k := by
  rw [val_main_v0_apply]
  unfold score
  refine Finset.sum_congr rfl fun d _ => ?_
  have el : lidx_main_v0 (ix3 b i k) d = ix3 b i d := funext fun a => by
    match a with
    | ⟨0, _⟩ => rfl
    | ⟨1, _⟩ => rfl
    | ⟨2, _⟩ => rfl
  have er : ridx_main_v0 (ix3 b i k) d = ix3 b k d := funext fun a => by
    match a with
    | ⟨0, _⟩ => rfl
    | ⟨1, _⟩ => rfl
    | ⟨2, _⟩ => rfl
  rw [el, er]

/-- The max-reduction's entry at `(b, i)` is the fold of `max` over row `i`'s scores from the word for `-∞`. -/
theorem v1_at (x0 : (⟨S8x2048x512, .f32⟩ : BufTy).Contents (Elt Ideal)) (b : Fin 8) (i : Fin 2048) :
    val_main_v1 (F := Ideal) x0 (ix2 b i) = (Finset.univ : Finset (Fin 2048)).fold max negInf (score x0 b i) := by
  have hs : score x0 b i = fun k => val_main_v0 (F := Ideal) x0 (ix3 b i k) := funext fun k => (v0_at x0 b i k).symm
  rw [hs]
  unfold val_main_v1
  generalize val_main_v0 (F := Ideal) x0 = y
  refine (Host.reduce_eq_fold_single _ _ _ reducesTo_S8x2048x2048_S8x2048_d2 red2 h_S_ (ix2 b i)).trans ?_
  show (Finset.univ : Finset (Fin 2048)).fold max negInf (fun k => y (red2.lift (ix2 b i) k)) = _
  exact congrArg (fun f : Fin 2048 → EReal => (Finset.univ : Finset (Fin 2048)).fold max negInf f)
    (funext fun k => congrArg y (lift_ix2 b i k))

/-- Capped below by the broadcast word for `-∞`, the entry at `(b, i)` is the row maximum. -/
theorem v3_at (x0 : (⟨S8x2048x512, .f32⟩ : BufTy).Contents (Elt Ideal)) (b : Fin 8) (i : Fin 2048) :
    val_main_v3 (F := Ideal) x0 (ix2 b i) = rowMax (score x0 b i) := by
  rw [val_main_v3_apply, val_main_v2_apply, val_main_cst_0_apply, v1_at]
  simp only [Ideal.maximumf_def, Ideal.ofBits_def]
  rfl

/-- The row maximum broadcast along the last axis: every column `k` of row `(b, i)` reads it. -/
theorem v5_at (x0 : (⟨S8x2048x512, .f32⟩ : BufTy).Contents (Elt Ideal)) (b : Fin 8) (i k : Fin 2048) :
    val_main_v5 (F := Ideal) x0 (ix3 b i k) = rowMax (score x0 b i) := by
  rw [val_main_v5_apply, val_main_v4_apply]
  have e : idx_main_v4 (idx_main_v5 (ix3 b i k)) = ix2 b i := funext fun a => by
    match a with
    | ⟨0, _⟩ => rfl
    | ⟨1, _⟩ => rfl
  rw [e, v3_at]

/-- The shifted exponential at `(b, i, k)`. -/
theorem v7_at (x0 : (⟨S8x2048x512, .f32⟩ : BufTy).Contents (Elt Ideal)) (b : Fin 8) (i k : Fin 2048) :
    val_main_v7 (F := Ideal) x0 (ix3 b i k) = expo (score x0 b i) k := by
  rw [val_main_v7_apply, val_main_v6_apply, v0_at, v5_at]
  simp only [Ideal.hostUnary_exp_def, Ideal.subf_def]
  rfl

/-- The sum-reduction's entry at `(b, i)`: the initial word is zero, so it is the sum of the row's exponentials. -/
theorem v8_at (x0 : (⟨S8x2048x512, .f32⟩ : BufTy).Contents (Elt Ideal)) (b : Fin 8) (i : Fin 2048) :
    val_main_v8 (F := Ideal) x0 (ix2 b i) = ∑ k : Fin 2048, expo (score x0 b i) k := by
  rw [val_main_v8_apply, val_main_cst_1_apply]
  simp only [Ideal.ofBits_def, Ideal.ofBits_zero_f32, zero_add]
  refine Finset.sum_congr rfl fun k _ => ?_
  have e : idx_main_v8 (ix2 b i) k = ix3 b i k := funext fun a => by
    match a with
    | ⟨0, _⟩ => rfl
    | ⟨1, _⟩ => rfl
    | ⟨2, _⟩ => rfl
  rw [e, v7_at]

/-- The row sum broadcast along the last axis. -/
theorem v10_at (x0 : (⟨S8x2048x512, .f32⟩ : BufTy).Contents (Elt Ideal)) (b : Fin 8) (i j : Fin 2048) :
    val_main_v10 (F := Ideal) x0 (ix3 b i j) = ∑ k : Fin 2048, expo (score x0 b i) k := by
  rw [val_main_v10_apply, val_main_v9_apply]
  have e : idx_main_v9 (idx_main_v10 (ix3 b i j)) = ix2 b i := funext fun a => by
    match a with
    | ⟨0, _⟩ => rfl
    | ⟨1, _⟩ => rfl
  rw [e, v8_at]

/-- The reference's result array is the specification's, entry by entry. -/
theorem ref_is_G (x0 : (⟨Cert.ReferenceIdeal.S8x2048x512, .f32⟩ : BufTy).Contents (Elt Ideal)) :
    Cert.ReferenceIdeal.Read.val_main_v11 (F := Ideal) x0 = Cert.GramSoftmax.G x0 := by
  funext o
  obtain ⟨b, i, j, rfl⟩ : ∃ (b : Fin 8) (i j : Fin 2048), o = ix3 b i j := ⟨o 0, o 1, o 2, eq_ix3 o⟩
  rw [G_ix3, val_main_v11_apply, v7_at, v10_at]
  simp only [Ideal.hostDivf_def]
  rfl

end Cert.GramSoftmax.Ref

end
-- ==== Proof.Payload.lean ====
/-
  The kernel body's stored value, read at an index.

  One grid point of the kernel loads a block of 256 rows of the input (the queries) and the whole
  2048-row batch slice (the keys), forms the 256 × 2048 matrix of inner products, and applies a
  row softmax to it: subtract the row's maximum, exponentiate, divide by the row's sum.  This
  module reads that stored value at an index (0, r, j) and identifies it with the specification's
  `softmaxRow` of row r's scores at column j.  Each operation that is not elementwise is read at
  an index in a lemma of its own over variables of the literal vector types; the chain after the
  matrix product is then stated as a function of the score matrix alone.
-/
import proofs.«107442_j45148696216798_1_alg».proof.Proof.Gen.KernelIdeal.Skeleton
import proofs.«107442_j45148696216798_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GramSoftmax.Pay

open Cert.KernelIdeal Cert.KernelIdeal.Gen Idealize.ShloMosaic Idealize.ShloMosaic.ValueIdx Idealize.SL.Sem

/-! ## The layout operations at an index -/

/-- A vector of 256 entries cast to a column reads, at `(r, u)`, the vector at `r`. -/
theorem colCast_at {α : Type} (v : S256.Idx → α) (h : S256.ShapeCasts S256x1) (r : Fin 256) (u : Fin 1) :
    shapeCast S256x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A column broadcast along the rows reads, at `(r, c)`, the column at `(r, 0)`. -/
theorem colBroadcast_at {α : Type} (v : S256x1.Idx → α) (h : S256x1.Broadcasts S256x2048) (r : Fin 256) (c : Fin 2048) :
    broadcastTo S256x2048 v h (ix2 r c) = v (ix2 r (0 : Fin 1)) := by
  refine broadcastTo_apply v h (ix2 r c) (ix2 r (0 : Fin 1)) fun ax => ?_
  match ax with
  | ⟨0, _⟩ =>
    show r.val = if (256 : Nat) = 1 then 0 else r.val
    rw [if_neg (by decide)]
  | ⟨1, _⟩ =>
    show (0 : Nat) = if (1 : Nat) = 1 then 0 else c.val
    rw [if_pos rfl]

/-! ## The reductions at an index -/

/-- The row maximum: the fold of `max` over the row's 2048 entries from the accumulator word's value. -/
theorem rowMaxRed_at (s : FVec Ideal S256x2048 .f32) (h : S256x2048.Reduces [1] S256) (hφ : FKind.Formats .f32)
    (hacc : (0xFF800000#32 : BitVec 32) = FKind.maximumf.neutral .f32 hφ) (r : Fin 256) :
    multiReduction (F := Ideal) .maximumf [1] S256 s 0xFF800000#32 h hφ hacc (ix1 r)
      = (Finset.univ : Finset (Fin 2048)).fold max (Ideal.ofBits .f32 0xFF800000#32) (fun k : Fin 2048 => s (ix2 r k)) := by
  refine (Ideal.multiReduction_maximumf_single s 0xFF800000#32 h hφ hacc (ix1 r)).trans ?_
  have hf : (s ∘ h.lift (ix1 r)) = fun k : Fin 2048 => s (ix2 r k) :=
    funext fun k => congrArg s (funext fun a => Fin.ext (by
      match a with
      | ⟨0, _⟩ => rfl
      | ⟨1, _⟩ => rfl))
  rw [hf]
  rfl

/-- The row sum: the sum of the row's 2048 entries. -/
theorem rowSumRed_at (e : FVec Ideal S256x2048 .f32) (h : S256x2048.Reduces [1] S256) (hφ : FKind.Formats .f32)
    (hacc : (0x00000000#32 : BitVec 32) = FKind.add.neutral .f32 hφ) (r : Fin 256) :
    multiReduction (F := Ideal) .add [1] S256 e 0x00000000#32 h hφ hacc (ix1 r) = ∑ k : Fin 2048, e (ix2 r k) := by
  refine (Ideal.multiReduction_add_single e 0x00000000#32 h hφ hacc (ix1 r)).trans ?_
  refine Finset.sum_congr rfl fun k _ => congrArg e (funext fun a => Fin.ext ?_)
  match a with
  | ⟨0, _⟩ => rfl
  | ⟨1, _⟩ => rfl

/-! ## The matrix product at an index -/

/-- The left operand's row coordinate is the result's row coordinate. -/
theorem lhs_row (i : S256x2048.Idx) (p : dot_S256x512_S2048x512_S256x2048_1_1_0_0_n_n.contr.Idx) :
    (dot_S256x512_S2048x512_S256x2048_1_1_0_0_n_n.lhsIdx i p 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl

/-- The right operand's row coordinate is the result's column coordinate. -/
theorem rhs_row (i : S256x2048.Idx) (p : dot_S256x512_S2048x512_S256x2048_1_1_0_0_n_n.contr.Idx) :
    (dot_S256x512_S2048x512_S256x2048_1_1_0_0_n_n.rhsIdx i p 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl

/-- The left operand's column coordinate is the contraction coordinate. -/
theorem lhs_col (i : S256x2048.Idx) (p : dot_S256x512_S2048x512_S256x2048_1_1_0_0_n_n.contr.Idx) :
    (dot_S256x512_S2048x512_S256x2048_1_1_0_0_n_n.lhsIdx i p 1).val = (p ⟨0, by decide⟩).val :=
  dot_S256x512_S2048x512_S256x2048_1_1_0_0_n_n.lhsIdx_val_of_single rfl i p

/-- The right operand's column coordinate is the contraction coordinate. -/
theorem rhs_col (i : S256x2048.Idx) (p : dot_S256x512_S2048x512_S256x2048_1_1_0_0_n_n.contr.Idx) :
    (dot_S256x512_S2048x512_S256x2048_1_1_0_0_n_n.rhsIdx i p 1).val = (p ⟨0, by decide⟩).val :=
  dot_S256x512_S2048x512_S256x2048_1_1_0_0_n_n.rhsIdx_val_of_single rfl i p

/-- The product of the query block with the transposed key block, accumulated into zero: at `(r, c)`
    the inner product of query row `r` and key row `c`. -/
theorem scores_at (q : FVec Ideal S256x512 .bf16) (k : FVec Ideal S2048x512 .bf16) (r : Fin 256) (c : Fin 2048) :
    matmul dot_S256x512_S2048x512_S256x2048_1_1_0_0_n_n none q k (constant (F := Ideal) S256x2048 .f32 0x00000000#32) (ix2 r c)
      = ∑ d : Fin 512, q (ix2 r d) * k (ix2 c d) := by
  show FloatOps.matmul dot_S256x512_S2048x512_S256x2048_1_1_0_0_n_n none q k (constant (F := Ideal) S256x2048 .f32 0x00000000#32) (ix2 r c) = _
  rw [Ideal.matmul_constant_zero_apply, ← Equiv.sum_comp (contrEquiv1 dot_S256x512_S2048x512_S256x2048_1_1_0_0_n_n 512 rfl rfl).symm]
  refine Finset.sum_congr rfl fun d _ => ?_
  have hd := contrEquiv1_symm_val dot_S256x512_S2048x512_S256x2048_1_1_0_0_n_n 512 rfl rfl d
  have el : dot_S256x512_S2048x512_S256x2048_1_1_0_0_n_n.lhsIdx (ix2 r c) ((contrEquiv1 dot_S256x512_S2048x512_S256x2048_1_1_0_0_n_n 512 rfl rfl).symm d) = ix2 r d :=
    funext fun a => Fin.ext (by
      match a with
      | ⟨0, _⟩ => exact lhs_row _ _
      | ⟨1, _⟩ => exact (lhs_col _ _).trans hd)
  have er : dot_S256x512_S2048x512_S256x2048_1_1_0_0_n_n.rhsIdx (ix2 r c) ((contrEquiv1 dot_S256x512_S2048x512_S256x2048_1_1_0_0_n_n 512 rfl rfl).symm d) = ix2 c d :=
    funext fun a => Fin.ext (by
      match a with
      | ⟨0, _⟩ => exact rhs_row _ _
      | ⟨1, _⟩ => exact (rhs_col _ _).trans hd)
  rw [el, er]

/-! ## The stages of the body, as functions -/

/-- The score matrix of a query block and a key block. -/
def sc (x0 : Vec Ideal S1x256x512 .f32) (x3 : Vec Ideal S1x2048x512 .f32) : FVec Ideal S256x2048 .f32 :=
  matmul dot_S256x512_S2048x512_S256x2048_1_1_0_0_n_n none
    (truncf .bf16 (shapeCast S256x512 x0 shapeCasts_S1x256x512_S256x512) bitsLt_bf16_f32)
    (truncf .bf16 (shapeCast S2048x512 x3 shapeCasts_S1x2048x512_S2048x512) bitsLt_bf16_f32)
    (constant S256x2048 .f32 0x00000000#32)

/-- The capped row maxima of a score matrix. -/
def mx (s : FVec Ideal S256x2048 .f32) : FVec Ideal S256 .f32 :=
  maximumf (broadcast S256 (Scalar.ofBits (F := Ideal) .f32 0xFF800000#32))
    (multiReduction .maximumf [1] S256 s 0xFF800000#32 reduces_S256x2048_S256 (.inl rfl) rfl)

/-- The shifted exponentials of a score matrix. -/
def ex (s : FVec Ideal S256x2048 .f32) : FVec Ideal S256x2048 .f32 :=
  exp (subf s (broadcastTo S256x2048 (shapeCast S256x1 (mx s) shapeCasts_S256_S256x1) broadcasts_S256x1_S256x2048))

/-- Their row sums. -/
def sm (s : FVec Ideal S256x2048 .f32) : FVec Ideal S256 .f32 :=
  multiReduction .add [1] S256 (ex s) 0x00000000#32 reduces_S256x2048_S256 (.inl rfl) rfl

/-- The row softmax of a score matrix, as the block the body stores. -/
def soft (s : FVec Ideal S256x2048 .f32) : FVec Ideal S1x256x2048 .f32 :=
  shapeCast S1x256x2048
    (divf (ex s) (broadcastTo S256x2048 (shapeCast S256x1 (sm s) shapeCasts_S256_S256x1) broadcasts_S256x1_S256x2048))
    shapeCasts_S256x2048_S1x256x2048

/-- The body's stored value is the row softmax of the score matrix. -/
theorem pay_eq (x0 : Vec Ideal S1x256x512 .f32) (x3 : Vec Ideal S1x2048x512 .f32) :
    k0_pay1 (F := Ideal) x0 x3 = soft (sc x0 x3) := rfl

/-- The score matrix at `(r, c)`: the inner product of row `r` of the query block and row `c` of the key block. -/
theorem sc_at (x0 : Vec Ideal S1x256x512 .f32) (x3 : Vec Ideal S1x2048x512 .f32) (r : Fin 256) (c : Fin 2048) :
    sc x0 x3 (ix2 r c) = ∑ d : Fin 512, x0 (ix3 (0 : Fin 1) r d) * x3 (ix3 (0 : Fin 1) c d) := by
  unfold sc
  refine (scores_at _ _ r c).trans ?_
  refine Finset.sum_congr rfl fun d _ => ?_
  show shapeCast S256x512 x0 shapeCasts_S1x256x512_S256x512 (ix2 r d)
      * shapeCast S2048x512 x3 shapeCasts_S1x2048x512_S2048x512 (ix2 c d) = _
  rw [shapeCast_1ab_ab_apply, shapeCast_1ab_ab_apply]

/-- The capped row maximum at `r` is the specification's `rowMax` of row `r`. -/
theorem mx_at (s : FVec Ideal S256x2048 .f32) (r : Fin 256) :
    mx s (ix1 r) = rowMax (fun k : Fin 2048 => s (ix2 r k)) := by
  unfold mx rowMax negInf
  refine (maximumf_apply _ _ (ix1 r)).trans ?_
  exact congrArg₂ max ((broadcast_apply _ _).trans (Ideal.ofBits_def _)) (rowMaxRed_at s _ _ _ r)

/-- The shifted exponential at `(r, c)` is the specification's `expo` of row `r` at `c`. -/
theorem ex_at (s : FVec Ideal S256x2048 .f32) (r : Fin 256) (c : Fin 2048) :
    ex s (ix2 r c) = expo (fun k : Fin 2048 => s (ix2 r k)) c := by
  have h1 := colBroadcast_at (shapeCast S256x1 (mx s) shapeCasts_S256_S256x1) broadcasts_S256x1_S256x2048 r c
  have h2 := colCast_at (mx s) shapeCasts_S256_S256x1 r (0 : Fin 1)
  unfold ex expo
  show Ideal.exp (s (ix2 r c)
      - broadcastTo S256x2048 (shapeCast S256x1 (mx s) shapeCasts_S256_S256x1) broadcasts_S256x1_S256x2048 (ix2 r c)) = _
  exact congrArg (fun m => Ideal.exp (s (ix2 r c) - m)) (h1.trans (h2.trans (mx_at s r)))

/-- The row sum at `r` is the sum of row `r`'s shifted exponentials. -/
theorem sm_at (s : FVec Ideal S256x2048 .f32) (r : Fin 256) :
    sm s (ix1 r) = ∑ k : Fin 2048, expo (fun k : Fin 2048 => s (ix2 r k)) k := by
  unfold sm
  refine (rowSumRed_at (ex s) _ _ _ r).trans ?_
  exact Finset.sum_congr rfl fun k _ => ex_at s r k

/-- The stored block at `(0, r, j)` is the specification's `softmaxRow` of row `r` at `j`. -/
theorem soft_at (s : FVec Ideal S256x2048 .f32) (r : Fin 256) (j : Fin 2048) :
    soft s (ix3 (0 : Fin 1) r j) = softmaxRow (fun k : Fin 2048 => s (ix2 r k)) j := by
  have h1 := colBroadcast_at (shapeCast S256x1 (sm s) shapeCasts_S256_S256x1) broadcasts_S256x1_S256x2048 r j
  have h2 := colCast_at (sm s) shapeCasts_S256_S256x1 r (0 : Fin 1)
  unfold soft softmaxRow
  refine (shapeCast_ab_1ab_apply _ _ (0 : Fin 1) r j).trans ?_
  show Ideal.div (ex s (ix2 r j))
      (broadcastTo S256x2048 (shapeCast S256x1 (sm s) shapeCasts_S256_S256x1) broadcasts_S256x1_S256x2048 (ix2 r j)) = _
  exact congrArg₂ Ideal.div (ex_at s r j) (h1.trans (h2.trans (sm_at s r)))

/-- The body's stored value at `(0, r, j)`: the softmax of row `r`'s scores at column `j`. -/
theorem pay_at (x0 : Vec Ideal S1x256x512 .f32) (x3 : Vec Ideal S1x2048x512 .f32) (r : Fin 256) (j : Fin 2048) :
    k0_pay1 (F := Ideal) x0 x3 (ix3 (0 : Fin 1) r j)
      = softmaxRow (fun k : Fin 2048 => ∑ d : Fin 512, x0 (ix3 (0 : Fin 1) r d) * x3 (ix3 (0 : Fin 1) k d)) j := by
  rw [pay_eq, soft_at]
  exact congrArg (fun f => softmaxRow f j) (funext fun k => sc_at x0 x3 r k)

end Cert.GramSoftmax.Pay

end
-- ==== Proof.Blocks.lean ====
/-
  From the output window's blocks to the whole result array.

  The grid has 8 x 8 = 64 points; point t has coordinates (b, i) = (t / 8, t % 8).  At point t the query window
  hands the body rows 256 i .. 256 i + 255 of batch b of the argument array, the key window all 2048 rows of
  batch b, and the output window writes back rows 256 i .. 256 i + 255 of batch b of the result array.  What is
  written back is the stored value of the two input blocks, which at row r and column j of the block is the
  softmax, at column j, of the scores of query row r against the 2048 key rows: the specification's entry at
  (b, 256 i + r, j).  So every point writes back its block of the specification's array, the 64 blocks tile the
  result array (row u of batch b lies in the block of point 8 b + u / 256), and the array ends at the
  specification's.
-/
import proofs.«107442_j45148696216798_1_alg».proof.Proof.FrameIdealRun
import proofs.«107442_j45148696216798_1_alg».proof.Proof.Payload
import proofs.«107442_j45148696216798_1_alg».proof.Proof.Spec
import Idealize.ShloMosaic.Lib.Pipeline.Value
import Idealize.ShloMosaic.Lib.ValueIdx

noncomputable section

namespace Cert.GramSoftmax.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The body's three accesses start at offset zero on every axis. -/
theorem zero_offsets : (![0, 0, 0] : Fin 3 → Nat) = fun _ => 0 := funext fun a => by fin_cases a <;> rfl

/-- The three index maps over the grid: point `t` is `(b, i) = (t / 8, t % 8)`; the query and the output window
    are at block `(b, i, 0)`, the key window at block `(b, 0, 0)`. -/
theorem block_index : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0 :=
  (by decide +kernel : ∀ t : Fin grid0.N, _)

/-- The query block at point `t`, at `y`, is the argument array at batch `t / 8`, row `256 (t % 8) + y₁`, column `y₂`:
    on each axis a block's element sits in the array at the block index times the block's size plus its own coordinate. -/
theorem query_block_apply (c : Dev nD) (t : Fin cfg0.N) (y : S1x256x512.Idx) (k : S8x2048x512.Idx)
    (h0 : (k 0).val = t.val / 8) (h1 : (k 1).val = 256 * (t.val % 8) + (y 1).val) (h2 : (k 2).val = (y 2).val) :
    (iblk m c 0 t : Vec Ideal S1x256x512 .f32) y = (m ((c.tc : Thread nD τ).loc main_arg0) : S8x2048x512.Idx → EReal) k := by
  obtain ⟨e0, e1, e2, -⟩ := block_index t
  unfold iblk
  rw [View.read_apply]
  show V m c main_arg0 _ = m (c.tc.loc main_arg0) _
  unfold V
  congr 1
  funext a
  apply Fin.ext
  have hy0 : (y 0).val < 1 := (y 0).isLt
  match a with
  | ⟨0, _⟩ => show win0_0.index t 0 * 1 + 1 * (y 0).val = (k 0).val; rw [e0, h0]; omega
  | ⟨1, _⟩ => show win0_0.index t 1 * 256 + 1 * (y 1).val = (k 1).val; rw [e1, h1]; omega
  | ⟨2, _⟩ => show win0_0.index t 2 * 512 + 1 * (y 2).val = (k 2).val; rw [e2, h2]; omega

/-- The key block at point `t`, at `y`, is the argument array at batch `t / 8`, row `y₁`, column `y₂`. -/
theorem key_block_apply (c : Dev nD) (t : Fin cfg0.N) (y : S1x2048x512.Idx) (k : S8x2048x512.Idx)
    (h0 : (k 0).val = t.val / 8) (h1 : (k 1).val = (y 1).val) (h2 : (k 2).val = (y 2).val) :
    (iblk m c 1 t : Vec Ideal S1x2048x512 .f32) y = (m ((c.tc : Thread nD τ).loc main_arg0) : S8x2048x512.Idx → EReal) k := by
  obtain ⟨-, -, -, e0, e1, e2, -⟩ := block_index t
  unfold iblk
  rw [View.read_apply]
  show V m c main_arg0 _ = m (c.tc.loc main_arg0) _
  unfold V
  congr 1
  funext a
  apply Fin.ext
  have hy0 : (y 0).val < 1 := (y 0).isLt
  match a with
  | ⟨0, _⟩ => show win0_1.index t 0 * 1 + 1 * (y 0).val = (k 0).val; rw [e0, h0]; omega
  | ⟨1, _⟩ => show win0_1.index t 1 * 2048 + 1 * (y 1).val = (k 1).val; rw [e1, h1]; omega
  | ⟨2, _⟩ => show win0_1.index t 2 * 512 + 1 * (y 2).val = (k 2).val; rw [e2, h2]; omega

/-- Element `y` of the output block at point `t` sits in the result array at batch `t / 8`, row `256 (t % 8) + y₁`,
    column `y₂`. -/
theorem out_block_emb (t : Fin cfg0.N) (y : S1x256x2048.Idx) (o : S8x2048x2048.Idx)
    (h0 : (o 0).val = t.val / 8) (h1 : (o 1).val = 256 * (t.val % 8) + (y 1).val) (h2 : (o 2).val = (y 2).val) :
    ((cfg0.win 2).blk t).view.emb y = o := by
  obtain ⟨-, -, -, -, -, -, e0, e1, e2⟩ := block_index t
  funext a
  apply Fin.ext
  have hy0 : (y 0).val < 1 := (y 0).isLt
  match a with
  | ⟨0, _⟩ => show win0_2.index t 0 * 1 + 1 * (y 0).val = (o 0).val; rw [e0, h0]; omega
  | ⟨1, _⟩ => show win0_2.index t 1 * 256 + 1 * (y 1).val = (o 1).val; rw [e1, h1]; omega
  | ⟨2, _⟩ => show win0_2.index t 2 * 2048 + 1 * (y 2).val = (o 2).val; rw [e2, h2]; omega

/-- An index of the result array is in point `t`'s output block iff each coordinate is in the block's range on its axis. -/
theorem mem_out_block (t : Fin cfg0.N) (i : S8x2048x2048.Idx) :
    i ∈ ((cfg0.win 2).blk t).view.set ↔ ∀ a : Fin 3, win0_2.index t a * S1x256x2048.size a ≤ (i a).val ∧ (i a).val < win0_2.index t a * S1x256x2048.size a + S1x256x2048.size a := by
  show i ∈ ((View.whole main_v0).slice (win0_2.rect t)).set ↔ _
  rw [View.set_slice_whole, Rect.mem_set_unit]
  exact Iff.rfl

/-- The output blocks tile the result array: index `(b, u, j)` is in the block of point `8 b + u / 256`, which writes back. -/
theorem out_blocks_cover (i : S8x2048x2048.Idx) :
    ∃ t : Fin cfg0.N, (cfg0.win 2).flush t = true ∧ i ∈ ((cfg0.win 2).blk t).view.set := by
  have hN : cfg0.N = 64 := N_0
  have hi0 : (i 0).val < 8 := (i 0).isLt
  have hi1 : (i 1).val < 2048 := (i 1).isLt
  have hi2 : (i 2).val < 2048 := (i 2).isLt
  let t : Fin cfg0.N := ⟨8 * (i 0).val + (i 1).val / 256, by rw [hN]; omega⟩
  have ht : t.val = 8 * (i 0).val + (i 1).val / 256 := rfl
  obtain ⟨-, -, -, -, -, -, e0, e1, e2⟩ := block_index t
  refine ⟨t, flush0_2 t, ?_⟩
  rw [mem_out_block]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 256 ≤ (i 1).val ∧ (i 1).val < win0_2.index t (1 : Fin 3) * 256 + 256; rw [e1, ht]; omega
  | ⟨2, _⟩ => show win0_2.index t (2 : Fin 3) * 2048 ≤ (i 2).val ∧ (i 2).val < win0_2.index t (2 : Fin 3) * 2048 + 2048; rw [e2]; omega

/-- The stored value of a query block and a key block that are rows of one array `x` — the query block's row `r` the
    array's row `u` of batch `b`, the key block the 2048 rows of batch `b` — is, at row `r` and column `j`, the
    specification's array at `(b, u, j)`: the softmax, at column `j`, of the scores of row `u` against the rows of batch `b`. -/
theorem payload_is_G (x : S8x2048x512.Idx → EReal) (x0 : Vec Ideal S1x256x512 .f32) (x3 : Vec Ideal S1x2048x512 .f32)
    (b : Fin 8) (u : Fin 2048) (r : Fin 256) (j : Fin 2048)
    (hq : ∀ d : Fin 512, x0 (ix3 (0 : Fin 1) r d) = x (ix3 b u d))
    (hk : ∀ (k : Fin 2048) (d : Fin 512), x3 (ix3 (0 : Fin 1) k d) = x (ix3 b k d)) :
    k0_pay1 (F := Ideal) x0 x3 (ix3 (0 : Fin 1) r j) = G x (ix3 b u j) := by
  rw [Pay.pay_at, G_ix3]
  unfold entry score
  simp only [hq, hk]

/-- What point `t` writes back is block `t` of the specification's array of the argument array: the output staging
    buffer holds the one whole-buffer store of the stored value of the two input blocks, read at `(0, r, j)`. -/
theorem flushed_eq (c : Dev nD) (t : Fin cfg0.N) :
    (dats m 0 c).flushed 2 t = ((cfg0.win 2).blk t).view.read (Elt Ideal) (G (m ((c.tc : Thread nD τ).loc main_arg0))) := by
  show (cfg0.win 2).cut (grid0.coords t) ((dats m 0 c).after 2 t) = _
  rw [after_o]
  unfold outBlock
  rw [View.canon_unit_zero zero_offsets]
  simp only [View.ld_unit_zero (S := S1x256x512) zero_offsets, View.ld_unit_zero (S := S1x2048x512) zero_offsets]
  have ht : t.val < 64 := lt_of_lt_of_eq t.isLt N_0
  have key : ∀ y' : S1x256x2048.Idx, k0_pay1 (F := Ideal) (iblk m c 0 t) (iblk m c 1 t) y'
      = G (m ((c.tc : Thread nD τ).loc main_arg0)) (((cfg0.win 2).blk t).view.emb y') := by
    intro y'
    obtain ⟨z, r, j, rfl⟩ : ∃ (z : Fin 1) (r : Fin 256) (j : Fin 2048), y' = ix3 z r j := ⟨y' 0, y' 1, y' 2, eq_ix3 y'⟩
    obtain rfl : z = 0 := Subsingleton.elim _ _
    have hr : r.val < 256 := r.isLt
    rw [out_block_emb t (ix3 (0 : Fin 1) r j) (ix3 (⟨t.val / 8, by omega⟩ : Fin 8) (⟨256 * (t.val % 8) + r.val, by omega⟩ : Fin 2048) j) rfl rfl rfl]
    exact payload_is_G _ _ _ _ _ r j
      (fun d => query_block_apply m c t (ix3 (0 : Fin 1) r d) _ rfl rfl rfl)
      (fun k d => key_block_apply m c t (ix3 (0 : Fin 1) k d) _ rfl rfl rfl)
  funext y
  exact key y

/-- The result array after the run is the specification's array of the argument array: every point writes back its
    block of it, and the blocks tile the array. -/
theorem final_o (c : Dev nD) :
    (Cert.KernelIdeal.Frame.dats (F := Ideal) m 0 c).arrAt 2 cfg0.N = Cert.GramSoftmax.G (m ((c.tc : Thread nD τ).loc main_arg0)) :=
  (dats m 0 c).arrAt_eq_of_cover 2 (G (m ((c.tc : Thread nD τ).loc main_arg0))) (fun t _ => flushed_eq m c t) out_blocks_cover

end Cert.GramSoftmax.Blocks

end
-- ==== Proof.lean ====
/-
  The certificate of the attention-similarity softmax kernel against its jnp reference.

  Both programs take `x : f32[8, 2048, 512]` and return, for every batch `b`, the row softmax of the Gram
  matrix `x[b] · x[b]ᵀ`: at (b, i, j) the exponential of `⟨x[b,i], x[b,j]⟩` less the row's maximum, over the sum of
  those exponentials along the row (`Cert.GramSoftmax.G`, Proof/Spec.lean).  At the ideal values the kernel's
  rounding of its matmul operands to bf16 is the identity, its matrix product into a zero accumulator and the
  host's `dot_general` are the same sums, and the two softmaxes are the same operations in the same order, so no
  algebraic law beyond the definitions joins the two sides and the precondition (finite inputs) is never opened.

  * The kernel's frame (Proof/FrameBitsRun.lean at the word level, Proof/FrameIdealRun.lean idealized): the one
    region runs at the 64 grid points; the argument array, handed to the kernel through two input windows, is
    dealt to them in two half shares and ends unchanged; the result array ends at what the write-backs made of it.
  * The kernel's value (Proof/Payload.lean, Proof/Blocks.lean): the block written back at point (b, i) is rows
    256 i … 256 i + 255 of batch b of `G x`, and the 64 blocks tile the result array.
  * The reference's value (Proof/RefIsSpec.lean over the generated run and its read-at-an-index lemmas): its
    result term is `G x`.
  * `preserves`: the idealization rewrote nothing, so the conjunct is `True`.
-/
import proofs.«107442_j45148696216798_1_alg».proof.Defs
import proofs.«107442_j45148696216798_1_alg».proof.Proof.Gen.Kernel
import proofs.«107442_j45148696216798_1_alg».proof.Proof.Gen.KernelIdeal
import proofs.«107442_j45148696216798_1_alg».proof.Proof.Gen.ReferenceIdeal
import proofs.«107442_j45148696216798_1_alg».proof.Proof.Gen.Pre_finite_inputs
import proofs.«107442_j45148696216798_1_alg».proof.Proof.Gen.ReferenceIdeal.Run
import proofs.«107442_j45148696216798_1_alg».proof.Proof.Gen.ReferenceIdeal.Read
import proofs.«107442_j45148696216798_1_alg».proof.Proof.FrameBitsRun
import proofs.«107442_j45148696216798_1_alg».proof.Proof.FrameIdealRun
import proofs.«107442_j45148696216798_1_alg».proof.Proof.RefIsSpec
import proofs.«107442_j45148696216798_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its argument array unchanged. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the result array at `G` of the (agreeing) argument arrays. -/
theorem algebraic : Cert.algebraic_KernelIdeal_ReferenceIdeal := by
  intro m ρ m' ρ' _ hagree
  refine ⟨fun c => Cert.GramSoftmax.G (m ((c.tc : Thread Cert.KernelIdeal.nD Cert.KernelIdeal.τ).loc Cert.KernelIdeal.main_arg0)), ?_, ?_⟩
  · exact (θ_run Cert.KernelIdeal.defs _ _).mono
      (fun _ h c => ⟨(h c 2).trans (Cert.GramSoftmax.Blocks.final_o m c), (h c 0).trans (Cert.KernelIdeal.Frame.arg_kept m c)⟩)
      (Cert.KernelIdeal.Frame.run_main m ρ)
  · exact (θ_run Cert.ReferenceIdeal.defs _ _).mono
      (fun _ h c => ⟨by rw [(h c).1, Cert.ReferenceIdeal.Read.val_main_v11_eq, Cert.GramSoftmax.Ref.ref_is_G, hagree c], (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
